-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128x512 : Shape := ⟨2, ![128, 512]⟩
abbrev S850000 : Shape := ⟨1, ![850000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg4 : FVec F S128x512 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128x512 .f32) (main_arg3 : FVec F S128x128 .f32) (main_arg4 : FVec F S128x512 .f32) (main_arg5 : IVec S850000 32) (main_arg6 : IVec S850000 32) (main_arg7 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128x512 : Shape := ⟨2, ![128, 512]⟩
abbrev S850000 : Shape := ⟨1, ![850000]⟩
abbrev S50000 : Shape := ⟨1, ![50000]⟩
abbrev S_ : Shape := ⟨0, ![]⟩
abbrev S850000x1 : Shape := ⟨2, ![850000, 1]⟩
abbrev S850000x128 : Shape := ⟨2, ![850000, 128]⟩
abbrev S50000x512 : Shape := ⟨2, ![50000, 512]⟩
abbrev S2000x128 : Shape := ⟨2, ![2000, 128]⟩
abbrev S2000x512 : Shape := ⟨2, ![2000, 512]⟩
abbrev S2000 : Shape := ⟨1, ![2000]⟩
abbrev S2000x1 : Shape := ⟨2, ![2000, 1]⟩
abbrev S50000x1 : Shape := ⟨2, ![50000, 1]⟩

abbrev nBuf : Space → Nat
  | .hbm => 43
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x512, .f32⟩
  | .hbm, ⟨3, _⟩ => ⟨S128x128, .f32⟩
  | .hbm, ⟨4, _⟩ => ⟨S128x512, .f32⟩
  | .hbm, ⟨5, _⟩ => ⟨S850000, .i32⟩
  | .hbm, ⟨6, _⟩ => ⟨S850000, .i32⟩
  | .hbm, ⟨7, _⟩ => ⟨S50000, .i32⟩
  | .hbm, ⟨8, _⟩ => ⟨S_, .i32⟩
  | .hbm, ⟨9, _⟩ => ⟨S850000, .i32⟩
  | .hbm, ⟨10, _⟩ => ⟨S850000, .i1⟩
  | .hbm, ⟨11, _⟩ => ⟨S_, .i32⟩
  | .hbm, ⟨12, _⟩ => ⟨S850000, .i32⟩
  | .hbm, ⟨13, _⟩ => ⟨S850000, .i32⟩
  | .hbm, ⟨14, _⟩ => ⟨S850000, .i32⟩
  | .hbm, ⟨15, _⟩ => ⟨S850000x1, .i32⟩
  | .hbm, ⟨16, _⟩ => ⟨S850000x128, .f32⟩
  | .hbm, ⟨17, _⟩ => ⟨S_, .f32⟩
  | .hbm, ⟨18, _⟩ => ⟨S50000x128, .f32⟩
  | .hbm, ⟨19, _⟩ => ⟨S850000x1, .i32⟩
  | .hbm, ⟨20, _⟩ => ⟨S50000x128, .f32⟩
  | .hbm, ⟨21, _⟩ => ⟨S50000x128, .f32⟩
  | .hbm, ⟨22, _⟩ => ⟨S50000x512, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000x128, .f32⟩
  | .hbm, ⟨32, _⟩ => ⟨S_, .f32⟩
  | .hbm, ⟨33, _⟩ => ⟨S50000x128, .f32⟩
  | .hbm, ⟨34, _⟩ => ⟨S850000x1, .i32⟩
  | .hbm, ⟨35, _⟩ => ⟨S50000x128, .f32⟩
  | .hbm, ⟨36, _⟩ => ⟨S50000x128, .f32⟩
  | .hbm, ⟨37, _⟩ => ⟨S50000x512, .f32⟩
  | .hbm, ⟨38, _⟩ => ⟨S50000x512, .f32⟩
  | .hbm, ⟨39, _⟩ => ⟨S_, .f32⟩
  | .hbm, ⟨40, _⟩ => ⟨S128x512, .f32⟩
  | .hbm, ⟨41, _⟩ => ⟨S50000x1, .i32⟩
  | .hbm, ⟨42, _⟩ => ⟨S128x512, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x512, .f32⟩
  | .local _ .vmem, ⟨4, _⟩ => ⟨S2000x128, .f32⟩
  | .local _ .vmem, ⟨5, _⟩ => ⟨S2000x128, .f32⟩
  | .local _ .vmem, ⟨6, _⟩ => ⟨S2000x512, .f32⟩
  | .local _ .vmem, ⟨7, _⟩ => ⟨S2000x512, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x512, .f32⟩
  | .local _ .vmem, ⟨12, _⟩ => ⟨S2000x128, .f32⟩
  | .local _ .vmem, ⟨13, _⟩ => ⟨S2000x128, .f32⟩
  | .local _ .vmem, ⟨14, _⟩ => ⟨S2000x512, .f32⟩
  | .local _ .vmem, ⟨15, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S850000 : S_.BroadcastsInDim S850000 (![] : Fin 0 → Fin S850000.rank)
  bcast_S850000_S850000x1_0 : S850000.BroadcastsInDim S850000x1 (![0] : Fin 1 → Fin S850000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  reduces_S2000x512_S2000 : S2000x512.Reduces [1] S2000
  shapeCasts_S2000_S2000x1 : S2000.ShapeCasts S2000x1
  broadcasts_S2000x1_S2000x512 : S2000x1.Broadcasts S2000x512
  inb_S2000x512_S2000x512_0_0 : ∀ a, (![0, 0] : Fin 2 → Nat) a + S2000x512.size a ≤ S2000x512.size a
  h_S2000x512 : 0 < S2000x512.numel
  bcast_S_S128x512 : S_.BroadcastsInDim S128x512 (![] : Fin 0 → Fin S128x512.rank)
  bcast_S50000_S50000x1_0 : S50000.BroadcastsInDim S50000x1 (![0] : Fin 1 → Fin S50000x1.rank)
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x512_S2000x512_1_0_0_1_n_n_wf : DotDims.WF S2000x128 S128x512 S2000x512 [1] [0] [0] [1] [] []
  scatter_S128x512_S50000x1_S50000x512_1_0_0_1_wf : ScatterDims.WF S128x512 S50000x1 S50000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)

variable [Facts₀]

def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def scatter_S128x512_S50000x1_S50000x512_1_0_0_1 : ScatterDims S128x512 S50000x1 S50000x512 where
  updateWindowDims := [1]
  insertedWindowDims := [0]
  scatterDimsToOperandDims := [0]
  indexVectorDim := 1
  wf := scatter_S128x512_S50000x1_S50000x512_1_0_0_1_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21_1) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128x512 : Shape := ⟨2, ![128, 512]⟩
abbrev S850000 : Shape := ⟨1, ![850000]⟩
abbrev S50000 : Shape := ⟨1, ![50000]⟩
abbrev S_ : Shape := ⟨0, ![]⟩
abbrev S50000x512 : Shape := ⟨2, ![50000, 512]⟩
abbrev S850000x1 : Shape := ⟨2, ![850000, 1]⟩
abbrev S850000x128 : Shape := ⟨2, ![850000, 128]⟩
abbrev S50000x1 : Shape := ⟨2, ![50000, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x512, .f32⟩
  | .hbm, ⟨3, _⟩ => ⟨S128x128, .f32⟩
  | .hbm, ⟨4, _⟩ => ⟨S128x512, .f32⟩
  | .hbm, ⟨5, _⟩ => ⟨S850000, .i32⟩
  | .hbm, ⟨6, _⟩ => ⟨S850000, .i32⟩
  | .hbm, ⟨7, _⟩ => ⟨S50000, .i32⟩
  | .hbm, ⟨8, _⟩ => ⟨S_, .f32⟩
  | .hbm, ⟨9, _⟩ => ⟨S50000x512, .f32⟩
  | .hbm, ⟨10, _⟩ => ⟨S_, .i32⟩
  | .hbm, ⟨11, _⟩ => ⟨S850000, .i32⟩
  | .hbm, ⟨12, _⟩ => ⟨S850000, .i1⟩
  | .hbm, ⟨13, _⟩ => ⟨S_, .i32⟩
  | .hbm, ⟨14, _⟩ => ⟨S850000, .i32⟩
  | .hbm, ⟨15, _⟩ => ⟨S850000, .i32⟩
  | .hbm, ⟨16, _⟩ => ⟨S850000, .i32⟩
  | .hbm, ⟨17, _⟩ => ⟨S850000x1, .i32⟩
  | .hbm, ⟨18, _⟩ => ⟨S850000x128, .f32⟩
  | .hbm, ⟨19, _⟩ => ⟨S_, .f32⟩
  | .hbm, ⟨20, _⟩ => ⟨S50000x128, .f32⟩
  | .hbm, ⟨21, _⟩ => ⟨S850000x1, .i32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x512, .f32⟩
  | .hbm, ⟨28, _⟩ => ⟨S_, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x512, .f32⟩
  | .hbm, ⟨35, _⟩ => ⟨S50000x512, .f32⟩
  | .hbm, ⟨36, _⟩ => ⟨S50000x512, .f32⟩
  | .hbm, ⟨37, _⟩ => ⟨S_, .f32⟩
  | .hbm, ⟨38, _⟩ => ⟨S50000, .f32⟩
  | .hbm, ⟨39, _⟩ => ⟨S50000x1, .f32⟩
  | .hbm, ⟨40, _⟩ => ⟨S50000x512, .f32⟩
  | .hbm, ⟨41, _⟩ => ⟨S50000x512, .f32⟩
  | .hbm, ⟨42, _⟩ => ⟨S50000x512, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x512, .f32⟩
  | .hbm, ⟨61, _⟩ => ⟨S_, .f32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x512, .f32⟩
  | .hbm, ⟨68, _⟩ => ⟨S50000x512, .f32⟩
  | .hbm, ⟨69, _⟩ => ⟨S50000x512, .f32⟩
  | .hbm, ⟨70, _⟩ => ⟨S_, .f32⟩
  | .hbm, ⟨71, _⟩ => ⟨S50000, .f32⟩
  | .hbm, ⟨72, _⟩ => ⟨S50000x1, .f32⟩
  | .hbm, ⟨73, _⟩ => ⟨S50000x512, .f32⟩
  | .hbm, ⟨74, _⟩ => ⟨S50000x512, .f32⟩
  | .hbm, ⟨75, _⟩ => ⟨S50000x512, .f32⟩
  | .hbm, ⟨76, _⟩ => ⟨S_, .f32⟩
  | .hbm, ⟨77, _⟩ => ⟨S128x512, .f32⟩
  | .hbm, ⟨78, _⟩ => ⟨S50000x1, .i32⟩
  | .hbm, ⟨79, _⟩ => ⟨S128x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S_S50000x512 : S_.BroadcastsInDim S50000x512 (![] : Fin 0 → Fin S50000x512.rank)
  bcast_S_S850000 : S_.BroadcastsInDim S850000 (![] : Fin 0 → Fin S850000.rank)
  bcast_S850000_S850000x1_0 : S850000.BroadcastsInDim S850000x1 (![0] : Fin 1 → Fin S850000x1.rank)
  bcast_S_S50000x128 : S_.BroadcastsInDim S50000x128 (![] : Fin 0 → Fin S50000x128.rank)
  reducesTo_S50000x512_S50000_d1 : S50000x512.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S128x512 : S_.BroadcastsInDim S128x512 (![] : Fin 0 → Fin S128x512.rank)
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x512_S50000x512_1_0_0_1_n_n_wf : DotDims.WF S50000x128 S128x512 S50000x512 [1] [0] [0] [1] [] []
  scatter_S128x512_S50000x1_S50000x512_1_0_0_1_wf : ScatterDims.WF S128x512 S50000x1 S50000x512 [1] [0] [0] 1

variable [Facts₀]

def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def scatter_S128x512_S50000x1_S50000x512_1_0_0_1 : ScatterDims S128x512 S50000x1 S50000x512 where
  updateWindowDims := [1]
  insertedWindowDims := [0]
  scatterDimsToOperandDims := [0]
  indexVectorDim := 1
  wf := scatter_S128x512_S50000x1_S50000x512_1_0_0_1_wf

class Facts : Prop extends Facts₀ where

variable [Facts]
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibAxisMax.lean ====
/-
  The maximum of a matrix along its second axis, read at an index. Independent of any program.

  A float max-reduction of an [a, b] matrix over axis 1 leaves an [a] vector whose entry p is the fold of max, started
  from the accumulator's value, over k : Fin b of the matrix at (p, k) — a row maximum. The host's reduce with a maximum
  body over the LAST axis of an array of any rank is read the same way by the library's single-axis law; this file gives
  the kernel's side at coordinates.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW MAXIMA: a max-reduction of an [a, b] matrix over axis 1, at row p, is the fold of max from the accumulator's value
    over k of the matrix at (p, k). -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg ((Finset.univ : Finset (Fin b)).fold max (Ideal.ofBits φ acc)) (funext fun k => congrArg src (funext fun c => Fin.ext ?_))
  match c with
  | ⟨0, _⟩ => rfl
  | ⟨1, _⟩ => rfl

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.SoftmaxRows.lean ====
/-
  The softmax of a matrix along its rows, as one function of a row, and the two ways the programs spell it.

  For a row ℓ of extended reals put top ℓ = max(-∞, max_k ℓ k), the row's maximum taken from -∞ and then once more
  against -∞. The softmax of the row at q is exp(ℓ q - top ℓ) / Σ_k exp(ℓ k - top ℓ), the quotient taken as the extended
  reals' division. A kernel computes it on a block by a max-reduction, a cast of the vector of maxima to a column,
  a broadcast of that column over the lanes, a subtraction, an exponential, an add-reduction, the same cast and broadcast,
  and a division; a host program by a reduce with a maximum body, two broadcasts, the same pointwise steps, a reduce
  with an add body from 0, two broadcasts and a division. Read at (p, q), both are the softmax of row p at q.
-/
import Idealize.ShloMosaic.Lib.ValueIdx
import Idealize.ShloMosaic.Lib.Pipeline.Value
import Idealize.ShloMosaic.PureOps.Ideal
import Idealize.ShloMosaic.PureOps.Ideal.Laws
import proofs.«145317_j40484361732769_1_alg».proof.Proof.LibAxisSums
import proofs.«145317_j40484361732769_1_alg».proof.Proof.LibAxisMax
import proofs.«145317_j40484361732769_1_alg».proof.Proof.LibColumnBroadcast
import proofs.«145317_j40484361732769_1_alg».proof.Proof.LibColumnCast

noncomputable section

namespace Cert.Softmax

open Idealize.ShloMosaic Idealize.ShloMosaic.ValueIdx

/-- -∞, as the f32 word both programs carry. -/
abbrev negInf : EReal := Ideal.ofBits .f32 0xFF800000#32

/-- The row's maximum from -∞, taken once more against -∞. -/
def rowTop {b : ℕ} (ℓ : Fin b → EReal) : EReal :=
  max negInf ((Finset.univ : Finset (Fin b)).fold max negInf ℓ)

/-- The softmax of the row ℓ at q. -/
def softRow {b : ℕ} (ℓ : Fin b → EReal) (q : Fin b) : EReal :=
  Ideal.div (Ideal.exp (ℓ q - rowTop ℓ)) (∑ k : Fin b, Ideal.exp (ℓ k - rowTop ℓ))

/-! ## The kernel's spelling -/

/-- A vector of per-row values, cast to a column and broadcast over the lanes, reads at (p, q) the value of row p. -/
theorem column_over_lanes {a b : ℕ} (v : FVec Ideal ⟨1, ![a]⟩ .f32)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) :=
  (Cert.Lib.broadcastTo_a1_ab_apply _ hb p q).trans (Cert.Lib.shapeCast_a_a1_apply v hc p 0)

/-- The kernel's chain of vector operations on a block of logits. -/
def kernelSoftmax {a b : ℕ} (L : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  divf
    (exp (subf L (broadcastTo ⟨2, ![a, b]⟩ (shapeCast ⟨2, ![a, 1]⟩
      (maximumf (broadcast ⟨1, ![a]⟩ (Scalar.ofBits (F := Ideal) .f32 0xFF800000#32))
        (multiReduction .maximumf [1] ⟨1, ![a]⟩ L 0xFF800000#32 hr (.inl rfl) rfl)) hc) hb)))
    (broadcastTo ⟨2, ![a, b]⟩ (shapeCast ⟨2, ![a, 1]⟩
      (multiReduction .add [1] ⟨1, ![a]⟩
        (exp (subf L (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ L 0xFF800000#32 hr (.inl rfl) rfl)) hc) hb)))
        0x00000000#32 hr (.inl rfl) rfl) hc) hb)

/-- The vector of row maxima, as the kernel takes it, at row p. -/
theorem kernel_top {a b : ℕ} (L : FVec Ideal ⟨2, ![a, b]⟩ .f32)
    (hr : (⟨2, ![a, b]⟩ : Shape).Reduces [1] ⟨1, ![a]⟩) (p : Fin a) :
    maximumf (broadcast ⟨1, ![a]⟩ (Scalar.ofBits (F := Ideal) .f32 0xFF800000#32))
        (multiReduction .maximumf [1] ⟨1, ![a]⟩ L 0xFF800000#32 hr (.inl rfl) rfl) (ix1 p)
      = rowTop (fun k => L (ix2 p k)) :=
  congrArg (max negInf) (Cert.Lib.rowMax_apply L 0xFF800000#32 hr (.inl rfl) rfl p)

/-- The kernel's exponentials at (p, q). -/
theorem kernel_exp {a b : ℕ} (L : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (p : Fin a) (q : Fin b) :
    exp (subf L (broadcastTo ⟨2, ![a, b]⟩ (shapeCast ⟨2, ![a, 1]⟩
      (maximumf (broadcast ⟨1, ![a]⟩ (Scalar.ofBits (F := Ideal) .f32 0xFF800000#32))
        (multiReduction .maximumf [1] ⟨1, ![a]⟩ L 0xFF800000#32 hr (.inl rfl) rfl)) hc) hb)) (ix2 p q)
      = Ideal.exp (L (ix2 p q) - rowTop (fun k => L (ix2 p k))) := by
  show Ideal.exp (L (ix2 p q) - broadcastTo ⟨2, ![a, b]⟩ (shapeCast ⟨2, ![a, 1]⟩ _ hc) hb (ix2 p q)) = _
  rw [column_over_lanes, kernel_top]

/-- THE KERNEL'S CHAIN at (p, q) is the softmax of row p at q. -/
theorem kernelSoftmax_apply {a b : ℕ} (L : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (p : Fin a) (q : Fin b) :
    kernelSoftmax L hr hc hb (ix2 p q) = softRow (fun k => L (ix2 p k)) q := by
  unfold kernelSoftmax softRow
  refine congrArg₂ Ideal.div (kernel_exp L hr hc hb p q) ?_
  refine (column_over_lanes _ hc hb p q).trans ?_
  refine (Cert.Lib.rowSum_apply _ _ hr (.inl rfl) rfl p).trans ?_
  exact Finset.sum_congr rfl fun k _ => kernel_exp L hr hc hb p k

/-! ## The host's spelling -/

/-- A vector of per-row values, broadcast to a column and then over the columns, reads at (p, q) the value of row p. -/
theorem row_over_columns {a b : ℕ} (v : FVec Ideal ⟨1, ![a]⟩ .f32)
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (q : Fin b) :
    broadcastInDim ⟨2, ![a, b]⟩ ![0, 1] hb2 (broadcastInDim ⟨2, ![a, 1]⟩ ![0] hb1 v) (ix2 p q) = v (ix1 p) := by
  have hp : p.val = if a = 1 then 0 else p.val := by
    split
    · have := p.isLt; omega
    · rfl
  refine (broadcastInDim_apply ![0, 1] hb2 _ (ix2 p q) (ix2 p (0 : Fin 1)) fun ax => ?_).trans
    (broadcastInDim_apply ![0] hb1 v (ix2 p (0 : Fin 1)) (ix1 p) fun ax => ?_)
  · match ax with
    | ⟨0, _⟩ => exact hp
    | ⟨1, _⟩ => rfl
  · match ax with
    | ⟨0, _⟩ => exact hp

/-- The host's chain of operations on the whole array of logits. -/
def hostSoftmax {a b : ℕ} (L : FVec Ideal ⟨2, ![a, b]⟩ .f32)
    (hrt : (⟨2, ![a, b]⟩ : Shape).ReducesTo [1] ⟨1, ![a]⟩) (h0 : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) : FVec Ideal ⟨2, ![a, b]⟩ .f32 :=
  Host.divf
    (Host.exp (subf L (broadcastInDim ⟨2, ![a, b]⟩ ![0, 1] hb2 (broadcastInDim ⟨2, ![a, 1]⟩ ![0] hb1
      (maximumf (broadcastInDim ⟨1, ![a]⟩ ![] hb0 (constant (F := Ideal) ⟨0, ![]⟩ .f32 0xFF800000#32))
        (Host.reduce FloatOps.maximumf L (constant (F := Ideal) ⟨0, ![]⟩ .f32 0xFF800000#32) hrt h0))))))
    (broadcastInDim ⟨2, ![a, b]⟩ ![0, 1] hb2 (broadcastInDim ⟨2, ![a, 1]⟩ ![0] hb1
      (Host.reduceAdd
        (Host.exp (subf L (broadcastInDim ⟨2, ![a, b]⟩ ![0, 1] hb2 (broadcastInDim ⟨2, ![a, 1]⟩ ![0] hb1
          (maximumf (broadcastInDim ⟨1, ![a]⟩ ![] hb0 (constant (F := Ideal) ⟨0, ![]⟩ .f32 0xFF800000#32))
            (Host.reduce FloatOps.maximumf L (constant (F := Ideal) ⟨0, ![]⟩ .f32 0xFF800000#32) hrt h0))))))
        (constant (F := Ideal) ⟨0, ![]⟩ .f32 0x00000000#32) hrt h0)))

/-- Inserting the coordinate k on the reduced axis of the row index p gives (p, k). -/
theorem lift_row {a b : ℕ} (hr : (⟨2, ![a, b]⟩ : Shape).Reduces [1] ⟨1, ![a]⟩) (p : Fin a) (k : Fin b) :
    hr.lift (ix1 p) k = ix2 p k :=
  funext fun c => Fin.ext (by
    match c with
    | ⟨0, _⟩ => rfl
    | ⟨1, _⟩ => rfl)

/-- The vector of row maxima, as the host takes it, at row p. -/
theorem host_top {a b : ℕ} (L : FVec Ideal ⟨2, ![a, b]⟩ .f32)
    (hrt : (⟨2, ![a, b]⟩ : Shape).ReducesTo [1] ⟨1, ![a]⟩) (hr : (⟨2, ![a, b]⟩ : Shape).Reduces [1] ⟨1, ![a]⟩)
    (h0 : 0 < (⟨0, ![]⟩ : Shape).numel) (hb0 : (⟨0, ![]⟩ : Shape).BroadcastsInDim ⟨1, ![a]⟩ ![]) (p : Fin a) :
    maximumf (broadcastInDim ⟨1, ![a]⟩ ![] hb0 (constant (F := Ideal) ⟨0, ![]⟩ .f32 0xFF800000#32))
        (Host.reduce FloatOps.maximumf L (constant (F := Ideal) ⟨0, ![]⟩ .f32 0xFF800000#32) hrt h0) (ix1 p)
      = rowTop (fun k => L (ix2 p k)) := by
  unfold rowTop
  refine congrArg₂ max ?_ ?_
  · exact broadcastInDim_apply ![] hb0 (constant (F := Ideal) ⟨0, ![]⟩ .f32 0xFF800000#32) (ix1 p)
      (fun ax => ax.elim0) (fun ax => ax.elim0)
  · refine (Host.reduce_eq_fold_single (max : EReal → EReal → EReal) L
      (constant (F := Ideal) ⟨0, ![]⟩ .f32 0xFF800000#32) hrt hr h0 (ix1 p)).trans ?_
    exact congrArg (fun f => (Finset.univ : Finset (Fin b)).fold max negInf f)
      (funext fun k => congrArg L (lift_row hr p k))

/-- The host's exponentials at (p, q). -/
theorem host_exp {a b : ℕ} (L : FVec Ideal ⟨2, ![a, b]⟩ .f32)
    (hrt : (⟨2, ![a, b]⟩ : Shape).ReducesTo [1] ⟨1, ![a]⟩) (hr : (⟨2, ![a, b]⟩ : Shape).Reduces [1] ⟨1, ![a]⟩)
    (h0 : 0 < (⟨0, ![]⟩ : Shape).numel) (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (q : Fin b) :
    Host.exp (subf L (broadcastInDim ⟨2, ![a, b]⟩ ![0, 1] hb2 (broadcastInDim ⟨2, ![a, 1]⟩ ![0] hb1
      (maximumf (broadcastInDim ⟨1, ![a]⟩ ![] hb0 (constant (F := Ideal) ⟨0, ![]⟩ .f32 0xFF800000#32))
        (Host.reduce FloatOps.maximumf L (constant (F := Ideal) ⟨0, ![]⟩ .f32 0xFF800000#32) hrt h0))))) (ix2 p q)
      = Ideal.exp (L (ix2 p q) - rowTop (fun k => L (ix2 p k))) := by
  refine congrArg (fun z => Ideal.exp (L (ix2 p q) - z)) ?_
  exact (row_over_columns _ hb1 hb2 p q).trans (host_top L hrt hr h0 hb0 p)

/-- THE HOST'S CHAIN at (p, q) is the softmax of row p at q: its sum starts from the word 0, which adds nothing. -/
theorem hostSoftmax_apply {a b : ℕ} (L : FVec Ideal ⟨2, ![a, b]⟩ .f32)
    (hrt : (⟨2, ![a, b]⟩ : Shape).ReducesTo [1] ⟨1, ![a]⟩) (hr : (⟨2, ![a, b]⟩ : Shape).Reduces [1] ⟨1, ![a]⟩)
    (h0 : 0 < (⟨0, ![]⟩ : Shape).numel) (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1]) (p : Fin a) (q : Fin b) :
    hostSoftmax L hrt h0 hb0 hb1 hb2 (ix2 p q) = softRow (fun k => L (ix2 p k)) q := by
  unfold hostSoftmax softRow
  refine congrArg₂ Ideal.div (host_exp L hrt hr h0 hb0 hb1 hb2 p q) ?_
  refine (row_over_columns _ hb1 hb2 p q).trans ?_
  show Ideal.hostReduceAdd hrt _ (Ideal.ofBits .f32 0x00000000#32) (ix1 p) = _
  rw [Ideal.hostReduceAdd_single hrt hr, Ideal.ofBits_zero_f32, zero_add]
  refine Finset.sum_congr rfl fun k _ => ?_
  rw [lift_row hr p k]
  exact host_exp L hrt hr h0 hb0 hb1 hb2 p k

end Cert.Softmax

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Stages.lean ====
/-
  The stages of the graph network, each as one whole-array function, and the two layer stages read at an index.

  One layer takes node features X [50000, 128] and the edge lists src, dst. It first sums, for every node, the features
  of the sources of the edges that arrive at it: a gather of rows X[src] scattered with accumulation at dst into zeros
  (edgeSum). It then multiplies by a weight matrix and clamps below at 0 (reluDot), multiplies by a second matrix and
  takes the softmax of every row (rowSoftmax). Two layers run one after the other, the second on the first's clamped
  features; the two softmax arrays are added, starting from zeros, and the rows of the sum are accumulated per graph id
  (pool). Every stage is stated with the host operations themselves, so the whole specification is literally the
  composed term of the plain program.

  At an index: reluDot M W at (i, q) is max(Σ_k M(i,k)·W(k,q), 0), and rowSoftmax H S at (i, q) is the softmax, at q, of the
  row q' ↦ Σ_k H(i,k)·S(k,q').
-/
import proofs.«145317_j40484361732769_1_alg».proof.ReferenceIdeal
import proofs.«145317_j40484361732769_1_alg».proof.Proof.Gen.ReferenceIdeal
import proofs.«145317_j40484361732769_1_alg».proof.Proof.SoftmaxRows
import proofs.«145317_j40484361732769_1_alg».proof.Proof.LibPlainDot

noncomputable section

namespace Cert.Stages

open Idealize.ShloMosaic Idealize.ShloMosaic.ValueIdx Cert.ReferenceIdeal Cert.ReferenceIdeal.Facts₀

/-- For every node, the sum of the rows X[src e] over the edges e with dst e that node: negative source ids are first
    shifted by the node count, the rows gathered, and scattered with accumulation into zeros. -/
def edgeSum (X : FVec Ideal S50000x128 .f32) (src dst : IVec S850000 32) : FVec Ideal S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (Host.gather gather_S50000x128_S850000x1_S850000x128_1_0_n_n_0_1_1128 X
      (broadcastInDim S850000x1 ![0] bcast_S850000_S850000x1_0
        (select (cmpi .slt src (broadcastInDim S850000 ![] bcast_S_S850000 (constantI S_ 32 0#32)))
          (addi src (broadcastInDim S850000 ![] bcast_S_S850000 (constantI S_ 32 50000#32))) src)))

/-- max(M · W, 0). -/
def reluDot (M : FVec Ideal S50000x128 .f32) (W : FVec Ideal S128x128 .f32) : FVec Ideal S50000x128 .f32 :=
  maximumf (Host.dotGeneral dot_S50000x128_S128x128_S50000x128_1_0_0_1_n_n none M W)
    (broadcastInDim S50000x128 ![] bcast_S_S50000x128 (constant S_ .f32 0x00000000#32))

/-- The softmax of every row of H · S. -/
def rowSoftmax (H : FVec Ideal S50000x128 .f32) (S : FVec Ideal S128x512 .f32) : FVec Ideal S50000x512 .f32 :=
  Cert.Softmax.hostSoftmax (Host.dotGeneral dot_S50000x128_S128x512_S50000x512_1_0_0_1_n_n none H S)
    reducesTo_S50000x512_S50000_d1 h_S_ bcast_S_S50000 bcast_S50000_S50000x1_0 bcast_S50000x1_S50000x512_0_1

/-- The rows of R accumulated per graph id into zeros. -/
def pool (R : FVec Ideal S50000x512 .f32) (gid : IVec S50000 32) : FVec Ideal S128x512 .f32 :=
  Host.scatterAdd scatter_S128x512_S50000x1_S50000x512_1_0_0_1
    (broadcastInDim S128x512 ![] bcast_S_S128x512 (constant S_ .f32 0x00000000#32))
    (broadcastInDim S50000x1 ![0] bcast_S50000_S50000x1_0 gid) R

/-- The first layer's clamped features. -/
def feat1 (x0 : FVec Ideal S50000x128 .f32) (x1 : FVec Ideal S128x128 .f32) (x5 x6 : IVec S850000 32) :
    FVec Ideal S50000x128 .f32 :=
  reluDot (edgeSum x0 x5 x6) x1

/-- The second layer's clamped features. -/
def feat2 (x0 : FVec Ideal S50000x128 .f32) (x1 x3 : FVec Ideal S128x128 .f32) (x5 x6 : IVec S850000 32) :
    FVec Ideal S50000x128 .f32 :=
  reluDot (edgeSum (feat1 x0 x1 x5 x6) x5 x6) x3

/-- THE SPECIFICATION: the pooled sum, from zeros, of the two layers' softmax arrays. -/
def spec (x0 : FVec Ideal S50000x128 .f32) (x1 : FVec Ideal S128x128 .f32) (x2 : FVec Ideal S128x512 .f32)
    (x3 : FVec Ideal S128x128 .f32) (x4 : FVec Ideal S128x512 .f32) (x5 x6 : IVec S850000 32) (x7 : IVec S50000 32) :
    FVec Ideal S128x512 .f32 :=
  pool (addf (addf (broadcastInDim S50000x512 ![] bcast_S_S50000x512 (constant S_ .f32 0x00000000#32))
      (rowSoftmax (feat1 x0 x1 x5 x6) x2)) (rowSoftmax (feat2 x0 x1 x3 x5 x6) x4)) x7

/-! ## The layer stages at an index -/

/-- The clamped product at (i, q). -/
theorem reluDot_apply (M : FVec Ideal S50000x128 .f32) (W : FVec Ideal S128x128 .f32) (i : Fin 50000) (q : Fin 128) :
    reluDot M W (ix2 i q) = max (∑ k : Fin 128, M (ix2 i k) * W (ix2 k q)) (Ideal.ofBits .f32 0x00000000#32) := by
  unfold reluDot
  refine congrArg₂ max ?_ ?_
  · exact Cert.Lib.dotGeneral_plain_apply dot_S50000x128_S128x128_S50000x128_1_0_0_1_n_n_wf none .single M W i q
  · exact broadcastInDim_apply ![] bcast_S_S50000x128 (constant (F := Ideal) S_ .f32 0x00000000#32) (ix2 i q)
      (fun ax => ax.elim0) (fun ax => ax.elim0)

/-- The row softmax of the product at (i, q). -/
theorem rowSoftmax_apply (H : FVec Ideal S50000x128 .f32) (S : FVec Ideal S128x512 .f32) (i : Fin 50000) (q : Fin 512) :
    rowSoftmax H S (ix2 i q)
      = Cert.Softmax.softRow (fun q' : Fin 512 => ∑ k : Fin 128, H (ix2 i k) * S (ix2 k q')) q := by
  unfold rowSoftmax
  refine (Cert.Softmax.hostSoftmax_apply _ reducesTo_S50000x512_S50000_d1 (by decide) h_S_ bcast_S_S50000
    bcast_S50000_S50000x1_0 bcast_S50000x1_S50000x512_0_1 i q).trans ?_
  refine congrArg (fun ℓ => Cert.Softmax.softRow ℓ q) (funext fun q' => ?_)
  exact Cert.Lib.dotGeneral_plain_apply dot_S50000x128_S128x512_S50000x512_1_0_0_1_n_n_wf none .single H S i q'

end Cert.Stages

end
-- ==== Proof.RefIsSpec.lean ====
/-
  The plain program computes the specification: its run's result term, stage by stage, is the composition of the
  network's stages. Every stage of the specification was stated with the plain program's own operations in its own
  order, so the two terms agree by unfolding the stages' names.
-/
import proofs.«145317_j40484361732769_1_alg».proof.Proof.Gen.ReferenceIdeal.Read
import proofs.«145317_j40484361732769_1_alg».proof.Proof.Stages

noncomputable section

namespace Cert.RefValue

open Idealize.ShloMosaic Cert.ReferenceIdeal

/-- The plain program's result stage is the specification of its arguments. -/
theorem result_is_spec (x0 : FVec Ideal S50000x128 .f32) (x1 : FVec Ideal S128x128 .f32) (x2 : FVec Ideal S128x512 .f32)
    (x3 : FVec Ideal S128x128 .f32) (x4 : FVec Ideal S128x512 .f32) (x5 x6 : IVec S850000 32) (x7 : IVec S50000 32) :
    Cert.ReferenceIdeal.Read.val_main_v53 (F := Ideal) x0 x1 x2 x3 x4 x5 x6 x7 = Cert.Stages.spec x0 x1 x2 x3 x4 x5 x6 x7 :=
  rfl

end Cert.RefValue

end
-- ==== Proof.KernelRun.lean ====
/-
  The kernel program's run with its result named.

  @main is five segments: a stretch of host operations, the first layer's region, a second stretch, the second layer's
  region, a last stretch. The contents of the TensorCore's unscoped buffers at each boundary are a fold from the launch
  memory: after a stretch, the stretch's operations applied; after a region, its arrays at what its write-backs leave.
  Every weakly fair execution terminates without a fault in a state whose every unscoped buffer holds the last boundary's
  contents; read at the result buffer that is the last fold at the result, and at an argument it is the launch contents.
-/
import proofs.«145317_j40484361732769_1_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v25 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelRun

end
-- ==== Proof.KernelBlock.lean ====
/-
  What the layer body computes on one block, read at an index.

  On a block x0 of 2000 rows of node features, the weight matrix x1 and the second matrix x2, the body first forms
  max(x0 · x1, 0) — the products accumulated into zeros, the roundings of the operands to a shorter format being the
  identity on the extended reals — and stores it; it then multiplies that by x2 and takes the softmax of every row.
  So the first stored value at (p, q) is max(Σ_k x0(p,k)·x1(k,q), 0), and the second at (p, q) is the softmax, at q, of the
  row q' ↦ Σ_k first(p,k)·x2(k,q'). Both layers run the same body.
-/
import proofs.«145317_j40484361732769_1_alg».proof.Proof.Gen.KernelIdeal.Skeleton
import proofs.«145317_j40484361732769_1_alg».proof.Proof.SoftmaxRows
import proofs.«145317_j40484361732769_1_alg».proof.Proof.LibPlainDot

noncomputable section

namespace Cert.KernelBlock

open Idealize.ShloMosaic Idealize.ShloMosaic.ValueIdx Cert.KernelIdeal Cert.KernelIdeal.Facts₀

/-- The clamped product of the block, at (p, q). -/
theorem pay1_apply (x0 : Vec Ideal S2000x128 .f32) (x1 : Vec Ideal S128x128 .f32) (p : Fin 2000) (q : Fin 128) :
    Cert.KernelIdeal.Gen.k0_pay1 x0 x1 (ix2 p q)
      = max (∑ k : Fin 128, x0 (ix2 p k) * x1 (ix2 k q)) (Ideal.ofBits .f32 0x00000000#32) := by
  unfold Cert.KernelIdeal.Gen.k0_pay1
  refine congrArg₂ max ?_ rfl
  refine (Cert.Lib.matmul_zero_apply dot_S2000x128_S128x128_S2000x128_1_0_0_1_n_n_wf none _ _ p q).trans ?_
  refine Finset.sum_congr rfl fun k _ => ?_
  show shapeCast S2000x128 x0 shapeCasts_S2000x128_S2000x128 (ix2 p k) * x1 (ix2 k q) = _
  rw [shapeCast_self]

/-- The body's second stored value is the kernel's softmax chain on the product of the first with x2. -/
theorem pay2_chain (x0 : Vec Ideal S2000x128 .f32) (x1 : Vec Ideal S128x128 .f32) (x2 : Vec Ideal S128x512 .f32) :
    Cert.KernelIdeal.Gen.k0_pay2 x0 x1 x2
      = Cert.Softmax.kernelSoftmax
          (matmul dot_S2000x128_S128x512_S2000x512_1_0_0_1_n_n none
            (truncf .bf16 (Cert.KernelIdeal.Gen.k0_pay1 x0 x1) bitsLt_bf16_f32) (truncf .bf16 x2 bitsLt_bf16_f32)
            (constant S2000x512 .f32 0x00000000#32))
          reduces_S2000x512_S2000 shapeCasts_S2000_S2000x1 broadcasts_S2000x1_S2000x512 := rfl

/-- The softmax of the block's rows of logits, at (p, q). -/
theorem pay2_apply (x0 : Vec Ideal S2000x128 .f32) (x1 : Vec Ideal S128x128 .f32) (x2 : Vec Ideal S128x512 .f32)
    (p : Fin 2000) (q : Fin 512) :
    Cert.KernelIdeal.Gen.k0_pay2 x0 x1 x2 (ix2 p q)
      = Cert.Softmax.softRow
          (fun q' : Fin 512 => ∑ k : Fin 128, Cert.KernelIdeal.Gen.k0_pay1 x0 x1 (ix2 p k) * x2 (ix2 k q')) q := by
  refine (congrFun (pay2_chain x0 x1 x2) (ix2 p q)).trans ?_
  refine (Cert.Softmax.kernelSoftmax_apply _ _ _ _ p q).trans ?_
  refine congrArg (fun ℓ => Cert.Softmax.softRow ℓ q) (funext fun q' => ?_)
  exact Cert.Lib.matmul_zero_apply dot_S2000x128_S128x512_S2000x512_1_0_0_1_n_n_wf none _ _ p q'

/-- The second layer runs the same body. -/
theorem pay1_second : @Cert.KernelIdeal.Gen.k1_pay1 Ideal _ = @Cert.KernelIdeal.Gen.k0_pay1 Ideal _ := rfl
theorem pay2_second : @Cert.KernelIdeal.Gen.k1_pay2 Ideal _ = @Cert.KernelIdeal.Gen.k0_pay2 Ideal _ := rfl

end Cert.KernelBlock

end
-- ==== Proof.RegionValue0.lean ====
/-
  The first layer's region: what its two output arrays hold when it ends, as whole-array functions of its input arrays.

  The region walks 25 grid points; point t stages rows 2000·t … 2000·t + 1999 of the aggregated features and of both
  outputs, and the whole of the two matrices. On the staged block the body computes the clamped product and the softmax of
  the rows of the second product (the per-block readings); row 2000·t + p of the whole-array stage depends only on row
  2000·t + p of the features and on the matrices, so block t of each output is block t of the stage applied to the whole
  arrays. The 25 blocks tile the 50000 rows — row r lies in the block of point r / 2000 — so each output array ends holding
  the stage of the arrays as the region found them, whatever those are.
-/
import proofs.«145317_j40484361732769_1_alg».proof.Proof.Gen.KernelIdeal.Frame
import Idealize.ShloMosaic.Lib.Pipeline.Value
import Idealize.ShloMosaic.Lib.ValueIdx
import proofs.«145317_j40484361732769_1_alg».proof.Proof.Stages
import proofs.«145317_j40484361732769_1_alg».proof.Proof.KernelBlock

set_option maxRecDepth 16384

noncomputable section

namespace Cert.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## The body on a block, against the whole-array stages -/

/-- If x0 is rows 2000·t … of M and x1 is W, the body's first stored value at y is the clamped product of M and W at the
    array index i with row 2000·t + y₀ and column y₁. -/
theorem feat_block (x0 : Vec Ideal S2000x128 .f32) (x1 : Vec Ideal S128x128 .f32)
    (M : FVec Ideal S50000x128 .f32) (W : FVec Ideal S128x128 .f32) (t : ℕ)
    (h0 : ∀ (y : S2000x128.Idx) (i : S50000x128.Idx), (i 0).val = 2000 * t + (y 0).val → (i 1).val = (y 1).val → x0 y = M i)
    (h1 : ∀ y : S128x128.Idx, x1 y = W y)
    (y : S2000x128.Idx) (i : S50000x128.Idx) (hi0 : (i 0).val = 2000 * t + (y 0).val) (hi1 : (i 1).val = (y 1).val) :
    k0_pay1 x0 x1 y = Cert.Stages.reluDot M W i := by
  obtain ⟨p, q, rfl⟩ : ∃ (p : Fin 2000) (q : Fin 128), y = ix2 p q := ⟨y 0, y 1, eq_ix2 y⟩
  obtain ⟨a, b, rfl⟩ : ∃ (a : Fin 50000) (b : Fin 128), i = ix2 a b := ⟨i 0, i 1, eq_ix2 i⟩
  obtain rfl : b = q := Fin.ext hi1
  rw [Cert.KernelBlock.pay1_apply, Cert.Stages.reluDot_apply]
  refine congrArg (max · _) (Finset.sum_congr rfl fun k _ => ?_)
  rw [h0 (ix2 p k) (ix2 a k) hi0 rfl, h1]

/-- Likewise the body's second stored value is the row softmax stage at the array index with row 2000·t + y₀. -/
theorem soft_block (x0 : Vec Ideal S2000x128 .f32) (x1 : Vec Ideal S128x128 .f32) (x2 : Vec Ideal S128x512 .f32)
    (M : FVec Ideal S50000x128 .f32) (W : FVec Ideal S128x128 .f32) (S : FVec Ideal S128x512 .f32) (t : ℕ)
    (h0 : ∀ (y : S2000x128.Idx) (i : S50000x128.Idx), (i 0).val = 2000 * t + (y 0).val → (i 1).val = (y 1).val → x0 y = M i)
    (h1 : ∀ y : S128x128.Idx, x1 y = W y) (h2 : ∀ y : S128x512.Idx, x2 y = S y)
    (y : S2000x512.Idx) (i : S50000x512.Idx) (hi0 : (i 0).val = 2000 * t + (y 0).val) (hi1 : (i 1).val = (y 1).val) :
    k0_pay2 x0 x1 x2 y = Cert.Stages.rowSoftmax (Cert.Stages.reluDot M W) S i := by
  obtain ⟨p, q, rfl⟩ : ∃ (p : Fin 2000) (q : Fin 512), y = ix2 p q := ⟨y 0, y 1, eq_ix2 y⟩
  obtain ⟨a, b, rfl⟩ : ∃ (a : Fin 50000) (b : Fin 512), i = ix2 a b := ⟨i 0, i 1, eq_ix2 i⟩
  obtain rfl : b = q := Fin.ext hi1
  rw [Cert.KernelBlock.pay2_apply, Cert.Stages.rowSoftmax_apply]
  refine congrArg (fun ℓ => Cert.Softmax.softRow ℓ b) (funext fun q' => Finset.sum_congr rfl fun k _ => ?_)
  rw [feat_block x0 x1 M W t h0 h1 (ix2 p k) (ix2 a k) hi0 rfl, h2]

/-! ## The windows' blocks -/

/-- The printed index maps over the grid: the row-blocked windows are at block (t, 0), the matrices at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features' block at point t is rows 2000·t … of the features' array. -/
theorem feat_rows (c : Dev nD) (t : Fin cfg0.N) (y : S2000x128.Idx) (i : S50000x128.Idx)
    (hi0 : (i 0).val = 2000 * t.val + (y 0).val) (hi1 : (i 1).val = (y 1).val) :
    (iblk0 V c 0 t : Vec Ideal S2000x128 .f32) y = (V c main_v9 : S50000x128.Idx → Elt Ideal .f32) i := by
  obtain ⟨e0, e1, -⟩ := index_maps t
  unfold iblk0
  rw [View.read_apply]
  show V c main_v9 _ = V c main_v9 _
  congr 1
  funext a
  apply Fin.ext
  match a with
  | ⟨0, _⟩ => show win0_0.index t 0 * 2000 + 1 * (y 0).val = (i 0).val; rw [e0, hi0]; omega
  | ⟨1, _⟩ => show win0_0.index t 1 * 128 + 1 * (y 1).val = (i 1).val; rw [e1, hi1]; omega

/-- The first matrix's block is the matrix. -/
theorem weight_whole (c : Dev nD) (t : Fin cfg0.N) (y : S128x128.Idx) :
    (iblk0 V c 1 t : Vec Ideal S128x128 .f32) y = (V c main_arg1 : S128x128.Idx → Elt Ideal .f32) y := by
  obtain ⟨-, -, e0, e1, -⟩ := index_maps t
  unfold iblk0
  rw [View.read_apply]
  show V c main_arg1 _ = V c main_arg1 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The second matrix's block is the matrix. -/
theorem second_whole (c : Dev nD) (t : Fin cfg0.N) (y : S128x512.Idx) :
    (iblk0 V c 2 t : Vec Ideal S128x512 .f32) y = (V c main_arg2 : S128x512.Idx → Elt Ideal .f32) y := by
  obtain ⟨-, -, -, -, e0, e1, -⟩ := index_maps t
  unfold iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 512 + 1 * (y 1).val = (y 1).val; rw [e1]; omega

/-! ## What each point writes back -/

/-- Point t writes back, to the features' output, block t of the clamped product of the arrays as found. -/
theorem flushed_feat (c : Dev nD) (t : Fin cfg0.N) :
    (dat0 V c).flushed 3 t
      = ((cfg0.win 3).blk t).view.read (Elt Ideal) (Cert.Stages.reluDot (V c main_v9) (V c main_arg1)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S128x128) zero_offsets]
  obtain ⟨-, -, -, -, -, -, e0, e1, -⟩ := index_maps t
  funext j
  rw [View.read_apply]
  refine feat_block _ _ _ _ t.val (fun y i a b => feat_rows V c t y i a b) (fun y => weight_whole V c t y) j _ ?_ ?_
  · show win0_3.index t 0 * 2000 + 1 * (j 0).val = 2000 * t.val + (j 0).val; rw [e0]; omega
  · show win0_3.index t 1 * 128 + 1 * (j 1).val = (j 1).val; rw [e1]; omega

/-- Point t writes back, to the softmax output, block t of the row softmax stage of the arrays as found. -/
theorem flushed_soft (c : Dev nD) (t : Fin cfg0.N) :
    (dat0 V c).flushed 4 t
      = ((cfg0.win 4).blk t).view.read (Elt Ideal)
          (Cert.Stages.rowSoftmax (Cert.Stages.reluDot (V c main_v9) (V c main_arg1)) (V c main_arg2)) := by
  show (cfg0.win 4).cut (grid0.coords t) ((dat0 V c).after 4 t) = _
  rw [after0_4]
  unfold out0_4
  rw [View.canon_unit_zero zero_offsets]
  simp only [View.ld_unit_zero (S := S2000x128) zero_offsets, View.ld_unit_zero (S := S128x128) zero_offsets,
    View.ld_unit_zero (S := S128x512) zero_offsets]
  obtain ⟨-, -, -, -, -, -, -, -, e0, e1⟩ := index_maps t
  funext j
  rw [View.read_apply]
  refine soft_block _ _ _ _ _ _ t.val (fun y i a b => feat_rows V c t y i a b) (fun y => weight_whole V c t y)
    (fun y => second_whole V c t y) j _ ?_ ?_
  · show win0_4.index t 0 * 2000 + 1 * (j 0).val = 2000 * t.val + (j 0).val; rw [e0]; omega
  · show win0_4.index t 1 * 512 + 1 * (j 1).val = (j 1).val; rw [e1]; omega

/-! ## The blocks tile the arrays -/

/-- Every index of the features' output lies in the block of the point its row divided by 2000 names. -/
theorem cover_feat (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 25 := N_0
  obtain ⟨t, ht⟩ : ∃ t : Fin cfg0.N, t.val = (i 0).val / 2000 := ⟨⟨(i 0).val / 2000, by show _ < grid0.N; rw [hN]; omega⟩, rfl⟩
  obtain ⟨-, -, -, -, -, -, e0, e1, -⟩ := index_maps t
  refine ⟨t, flush0_3 t, ?_⟩
  show i ∈ ((View.whole main_v10_0).slice (win0_3.rect t)).set
  rw [View.set_slice_whole, Rect.mem_set_unit]
  intro a
  match a with
  | ⟨0, _⟩ =>
    show win0_3.index t 0 * 2000 ≤ (i 0).val ∧ (i 0).val < win0_3.index t 0 * 2000 + 2000
    rw [e0, ht]; omega
  | ⟨1, _⟩ =>
    show win0_3.index t 1 * 128 ≤ (i 1).val ∧ (i 1).val < win0_3.index t 1 * 128 + 128
    rw [e1]; omega

/-- And every index of the softmax output likewise. -/
theorem cover_soft (i : S50000x512.Idx) :
    ∃ t : Fin cfg0.N, (cfg0.win 4).flush t = true ∧ i ∈ ((cfg0.win 4).blk t).view.set := by
  have hi0 : (i 0).val < 50000 := (i 0).isLt
  have hi1 : (i 1).val < 512 := (i 1).isLt
  have hN : grid0.N = 25 := N_0
  obtain ⟨t, ht⟩ : ∃ t : Fin cfg0.N, t.val = (i 0).val / 2000 := ⟨⟨(i 0).val / 2000, by show _ < grid0.N; rw [hN]; omega⟩, rfl⟩
  obtain ⟨-, -, -, -, -, -, -, -, e0, e1⟩ := index_maps t
  refine ⟨t, flush0_4 t, ?_⟩
  show i ∈ ((View.whole main_v10_1).slice (win0_4.rect t)).set
  rw [View.set_slice_whole, Rect.mem_set_unit]
  intro a
  match a with
  | ⟨0, _⟩ =>
    show win0_4.index t 0 * 2000 ≤ (i 0).val ∧ (i 0).val < win0_4.index t 0 * 2000 + 2000
    rw [e0, ht]; omega
  | ⟨1, _⟩ =>
    show win0_4.index t 1 * 512 ≤ (i 1).val ∧ (i 1).val < win0_4.index t 1 * 512 + 512
    rw [e1]; omega

/-! ## The output arrays when the region ends -/

/-- The features' output array ends holding the clamped product of the arrays as the region found them. -/
theorem feat_array (c : Dev nD) :
    (dat0 V c).arrAt 3 cfg0.N = Cert.Stages.reluDot (V c main_v9) (V c main_arg1) :=
  (dat0 V c).arrAt_eq_of_cover 3 _ (fun t _ => flushed_feat V c t) cover_feat

/-- The softmax output array ends holding the row softmax stage of the arrays as the region found them. -/
theorem soft_array (c : Dev nD) :
    (dat0 V c).arrAt 4 cfg0.N
      = Cert.Stages.rowSoftmax (Cert.Stages.reluDot (V c main_v9) (V c main_arg1)) (V c main_arg2) :=
  (dat0 V c).arrAt_eq_of_cover 4 _ (fun t _ => flushed_soft V c t) cover_soft

end Cert.Region0

end
-- ==== Proof.RegionValue1.lean ====
/-
  The second layer's region: what its two output arrays hold when it ends, as whole-array functions of its input arrays.

  It is the first layer's pipeline over again on other arrays: 25 grid points, point t staging rows 2000·t … 2000·t + 1999
  of the second aggregation and of both outputs and the whole of the second pair of matrices, the same body on each block.
  So the per-block readings are the first region's, block t of each output is block t of the whole-array stage, the blocks
  tile the 50000 rows, and each output array ends holding the stage of the arrays as the region found them.
-/
import proofs.«145317_j40484361732769_1_alg».proof.Proof.Gen.KernelIdeal.Frame
import Idealize.ShloMosaic.Lib.Pipeline.Value
import Idealize.ShloMosaic.Lib.ValueIdx
import proofs.«145317_j40484361732769_1_alg».proof.Proof.Stages
import proofs.«145317_j40484361732769_1_alg».proof.Proof.KernelBlock
import proofs.«145317_j40484361732769_1_alg».proof.Proof.RegionValue0

set_option maxRecDepth 16384

noncomputable section

namespace Cert.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := Cert.Region0.zero_offsets

/-! ## The body on a block, against the whole-array stages -/

/-- If x0 is rows 2000·t … of M and x1 is W, the body's first stored value at y is the clamped product of M and W at the
    array index i with row 2000·t + y₀ and column y₁. -/
theorem feat_block (x0 : Vec Ideal S2000x128 .f32) (x1 : Vec Ideal S128x128 .f32)
    (M : FVec Ideal S50000x128 .f32) (W : FVec Ideal S128x128 .f32) (t : ℕ)
    (h0 : ∀ (y : S2000x128.Idx) (i : S50000x128.Idx), (i 0).val = 2000 * t + (y 0).val → (i 1).val = (y 1).val → x0 y = M i)
    (h1 : ∀ y : S128x128.Idx, x1 y = W y)
    (y : S2000x128.Idx) (i : S50000x128.Idx) (hi0 : (i 0).val = 2000 * t + (y 0).val) (hi1 : (i 1).val = (y 1).val) :
    k1_pay1 x0 x1 y = Cert.Stages.reluDot M W i :=
  Cert.Region0.feat_block x0 x1 M W t h0 h1 y i hi0 hi1

/-- Likewise the body's second stored value is the row softmax stage at the array index with row 2000·t + y₀. -/
theorem soft_block (x0 : Vec Ideal S2000x128 .f32) (x1 : Vec Ideal S128x128 .f32) (x2 : Vec Ideal S128x512 .f32)
    (M : FVec Ideal S50000x128 .f32) (W : FVec Ideal S128x128 .f32) (S : FVec Ideal S128x512 .f32) (t : ℕ)
    (h0 : ∀ (y : S2000x128.Idx) (i : S50000x128.Idx), (i 0).val = 2000 * t + (y 0).val → (i 1).val = (y 1).val → x0 y = M i)
    (h1 : ∀ y : S128x128.Idx, x1 y = W y) (h2 : ∀ y : S128x512.Idx, x2 y = S y)
    (y : S2000x512.Idx) (i : S50000x512.Idx) (hi0 : (i 0).val = 2000 * t + (y 0).val) (hi1 : (i 1).val = (y 1).val) :
    k1_pay2 x0 x1 x2 y = Cert.Stages.rowSoftmax (Cert.Stages.reluDot M W) S i :=
  Cert.Region0.soft_block x0 x1 x2 M W S t h0 h1 h2 y i hi0 hi1

/-! ## The windows' blocks -/

/-- The printed index maps over the grid: the row-blocked windows are at block (t, 0), the matrices at block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The features' block at point t is rows 2000·t … of the features' array. -/
theorem feat_rows (c : Dev nD) (t : Fin cfg1.N) (y : S2000x128.Idx) (i : S50000x128.Idx)
    (hi0 : (i 0).val = 2000 * t.val + (y 0).val) (hi1 : (i 1).val = (y 1).val) :
    (iblk1 V c 0 t : Vec Ideal S2000x128 .f32) y = (V c main_v20 : S50000x128.Idx → Elt Ideal .f32) i := by
  obtain ⟨e0, e1, -⟩ := index_maps t
  unfold iblk1
  rw [View.read_apply]
  show V c main_v20 _ = V c main_v20 _
  congr 1
  funext a
  apply Fin.ext
  match a with
  | ⟨0, _⟩ => show win1_0.index t 0 * 2000 + 1 * (y 0).val = (i 0).val; rw [e0, hi0]; omega
  | ⟨1, _⟩ => show win1_0.index t 1 * 128 + 1 * (y 1).val = (i 1).val; rw [e1, hi1]; omega

/-- The first matrix's block is the matrix. -/
theorem weight_whole (c : Dev nD) (t : Fin cfg1.N) (y : S128x128.Idx) :
    (iblk1 V c 1 t : Vec Ideal S128x128 .f32) y = (V c main_arg3 : S128x128.Idx → Elt Ideal .f32) y := by
  obtain ⟨-, -, e0, e1, -⟩ := index_maps t
  unfold iblk1
  rw [View.read_apply]
  show V c main_arg3 _ = V c main_arg3 _
  congr 1
  funext a
  apply Fin.ext
  match a with
  | ⟨0, _⟩ => show win1_1.index t 0 * 128 + 1 * (y 0).val = (y 0).val; rw [e0]; omega
  | ⟨1, _⟩ => show win1_1.index t 1 * 128 + 1 * (y 1).val = (y 1).val; rw [e1]; omega

/-- The second matrix's block is the matrix. -/
theorem second_whole (c : Dev nD) (t : Fin cfg1.N) (y : S128x512.Idx) :
    (iblk1 V c 2 t : Vec Ideal S128x512 .f32) y = (V c main_arg4 : S128x512.Idx → Elt Ideal .f32) y := by
  obtain ⟨-, -, -, -, e0, e1, -⟩ := index_maps t
  unfold iblk1
  rw [View.read_apply]
  show V c main_arg4 _ = V c main_arg4 _
  congr 1
  funext a
  apply Fin.ext
  match a with
  | ⟨0, _⟩ => show win1_2.index t 0 * 128 + 1 * (y 0).val = (y 0).val; rw [e0]; omega
  | ⟨1, _⟩ => show win1_2.index t 1 * 512 + 1 * (y 1).val = (y 1).val; rw [e1]; omega

/-! ## What each point writes back -/

/-- Point t writes back, to the features' output, block t of the clamped product of the arrays as found. -/
theorem flushed_feat (c : Dev nD) (t : Fin cfg1.N) :
    (dat1 V c).flushed 3 t
      = ((cfg1.win 3).blk t).view.read (Elt Ideal) (Cert.Stages.reluDot (V c main_v20) (V c main_arg3)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S128x128) zero_offsets]
  obtain ⟨-, -, -, -, -, -, e0, e1, -⟩ := index_maps t
  funext j
  rw [View.read_apply]
  refine feat_block _ _ _ _ t.val (fun y i a b => feat_rows V c t y i a b) (fun y => weight_whole V c t y) j _ ?_ ?_
  · show win1_3.index t 0 * 2000 + 1 * (j 0).val = 2000 * t.val + (j 0).val; rw [e0]; omega
  · show win1_3.index t 1 * 128 + 1 * (j 1).val = (j 1).val; rw [e1]; omega

/-- Point t writes back, to the softmax output, block t of the row softmax stage of the arrays as found. -/
theorem flushed_soft (c : Dev nD) (t : Fin cfg1.N) :
    (dat1 V c).flushed 4 t
      = ((cfg1.win 4).blk t).view.read (Elt Ideal)
          (Cert.Stages.rowSoftmax (Cert.Stages.reluDot (V c main_v20) (V c main_arg3)) (V c main_arg4)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S128x128) zero_offsets,
    View.ld_unit_zero (S := S128x512) zero_offsets]
  obtain ⟨-, -, -, -, -, -, -, -, e0, e1⟩ := index_maps t
  funext j
  rw [View.read_apply]
  refine soft_block _ _ _ _ _ _ t.val (fun y i a b => feat_rows V c t y i a b) (fun y => weight_whole V c t y)
    (fun y => second_whole V c t y) j _ ?_ ?_
  · show win1_4.index t 0 * 2000 + 1 * (j 0).val = 2000 * t.val + (j 0).val; rw [e0]; omega
  · show win1_4.index t 1 * 512 + 1 * (j 1).val = (j 1).val; rw [e1]; omega

/-! ## The blocks tile the arrays -/

/-- Every index of the features' output lies in the block of the point its row divided by 2000 names. -/
theorem cover_feat (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 25 := N_1
  obtain ⟨t, ht⟩ : ∃ t : Fin cfg1.N, t.val = (i 0).val / 2000 := ⟨⟨(i 0).val / 2000, by show _ < grid1.N; rw [hN]; omega⟩, rfl⟩
  obtain ⟨-, -, -, -, -, -, e0, e1, -⟩ := index_maps t
  refine ⟨t, flush1_3 t, ?_⟩
  show i ∈ ((View.whole main_v21_0).slice (win1_3.rect t)).set
  rw [View.set_slice_whole, Rect.mem_set_unit]
  intro a
  match a with
  | ⟨0, _⟩ =>
    show win1_3.index t 0 * 2000 ≤ (i 0).val ∧ (i 0).val < win1_3.index t 0 * 2000 + 2000
    rw [e0, ht]; omega
  | ⟨1, _⟩ =>
    show win1_3.index t 1 * 128 ≤ (i 1).val ∧ (i 1).val < win1_3.index t 1 * 128 + 128
    rw [e1]; omega

/-- And every index of the softmax output likewise. -/
theorem cover_soft (i : S50000x512.Idx) :
    ∃ t : Fin cfg1.N, (cfg1.win 4).flush t = true ∧ i ∈ ((cfg1.win 4).blk t).view.set := by
  have hi0 : (i 0).val < 50000 := (i 0).isLt
  have hi1 : (i 1).val < 512 := (i 1).isLt
  have hN : grid1.N = 25 := N_1
  obtain ⟨t, ht⟩ : ∃ t : Fin cfg1.N, t.val = (i 0).val / 2000 := ⟨⟨(i 0).val / 2000, by show _ < grid1.N; rw [hN]; omega⟩, rfl⟩
  obtain ⟨-, -, -, -, -, -, -, -, e0, e1⟩ := index_maps t
  refine ⟨t, flush1_4 t, ?_⟩
  show i ∈ ((View.whole main_v21_1).slice (win1_4.rect t)).set
  rw [View.set_slice_whole, Rect.mem_set_unit]
  intro a
  match a with
  | ⟨0, _⟩ =>
    show win1_4.index t 0 * 2000 ≤ (i 0).val ∧ (i 0).val < win1_4.index t 0 * 2000 + 2000
    rw [e0, ht]; omega
  | ⟨1, _⟩ =>
    show win1_4.index t 1 * 512 ≤ (i 1).val ∧ (i 1).val < win1_4.index t 1 * 512 + 512
    rw [e1]; omega

/-! ## The output arrays when the region ends -/

/-- The features' output array ends holding the clamped product of the arrays as the region found them. -/
theorem feat_array (c : Dev nD) :
    (dat1 V c).arrAt 3 cfg1.N = Cert.Stages.reluDot (V c main_v20) (V c main_arg3) :=
  (dat1 V c).arrAt_eq_of_cover 3 _ (fun t _ => flushed_feat V c t) cover_feat

/-- The softmax output array ends holding the row softmax stage of the arrays as the region found them. -/
theorem soft_array (c : Dev nD) :
    (dat1 V c).arrAt 4 cfg1.N
      = Cert.Stages.rowSoftmax (Cert.Stages.reluDot (V c main_v20) (V c main_arg3)) (V c main_arg4) :=
  (dat1 V c).arrAt_eq_of_cover 4 _ (fun t _ => flushed_soft V c t) cover_soft

end Cert.Region1

end
-- ==== Proof.KernelValue.lean ====
/-
  The kernel program's result is the specification of its arguments.

  The contents at the last boundary are walked back to the launch memory. An argument is written by no host operation and
  by no region, so at every boundary it holds its launch contents. The first stretch leaves, in the first region's features
  array, the aggregation of the node features over the edges; the first region leaves the clamped product and the row
  softmax of that and its matrices (the region readings, at the contents the region found). The second stretch aggregates
  the first region's clamped features; the second region does the same with the second pair of matrices. The last stretch
  adds the two softmax arrays and accumulates the rows per graph id. The specification adds the two softmax arrays onto an
  array of zeros first; over the extended reals 0 + x = x, so the two agree.
-/
import proofs.«145317_j40484361732769_1_alg».proof.Proof.Gen.KernelIdeal.Frame
import Idealize.ShloMosaic.Lib.StableHlo.Run
import Idealize.ShloMosaic.Lib.Tactic
import Idealize.ShloMosaic.PureOps.Ideal
import Idealize.ShloMosaic.PureOps.Ideal.Laws
import proofs.«145317_j40484361732769_1_alg».proof.Proof.Stages
import proofs.«145317_j40484361732769_1_alg».proof.Proof.RegionValue0
import proofs.«145317_j40484361732769_1_alg».proof.Proof.RegionValue1

set_option maxRecDepth 16384

noncomputable section

namespace Cert.KernelValue

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (ρ : Dev nD → PrngReg)

/-! ## The arguments at every boundary -/

/-- The first stretch writes no argument. -/
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- The first stretch writes no argument. -/
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- The first stretch writes no argument. -/
theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- The first stretch writes no argument. -/
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- The first stretch writes no argument. -/
theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- The first stretch writes no argument. -/
theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- The first stretch writes no argument. -/
theorem W1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Nor is it an output of the first region. -/
theorem W2_arg3 (c : Dev nD) : W2 m ρ c (Proc.devRef .tc main_arg3) = m ((c : Thread nD τ).loc main_arg3) :=
  (W2_of_ne m ρ c main_arg3 (by decide)).trans (W1_arg3 m ρ c)
/-- Nor is it an output of the first region. -/
theorem W2_arg4 (c : Dev nD) : W2 m ρ c (Proc.devRef .tc main_arg4) = m ((c : Thread nD τ).loc main_arg4) :=
  (W2_of_ne m ρ c main_arg4 (by decide)).trans (W1_arg4 m ρ c)
/-- Nor is it an output of the first region. -/
theorem W2_arg5 (c : Dev nD) : W2 m ρ c (Proc.devRef .tc main_arg5) = m ((c : Thread nD τ).loc main_arg5) :=
  (W2_of_ne m ρ c main_arg5 (by decide)).trans (W1_arg5 m ρ c)
/-- Nor is it an output of the first region. -/
theorem W2_arg6 (c : Dev nD) : W2 m ρ c (Proc.devRef .tc main_arg6) = m ((c : Thread nD τ).loc main_arg6) :=
  (W2_of_ne m ρ c main_arg6 (by decide)).trans (W1_arg6 m ρ c)
/-- Nor is it an output of the first region. -/
theorem W2_arg7 (c : Dev nD) : W2 m ρ c (Proc.devRef .tc main_arg7) = m ((c : Thread nD τ).loc main_arg7) :=
  (W2_of_ne m ρ c main_arg7 (by decide)).trans (W1_arg7 m ρ c)

/-- The second stretch writes no argument. -/
theorem W3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg3 m ρ c)
/-- The second stretch writes no argument. -/
theorem W3_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg4 m ρ c)
/-- The second stretch writes no argument. -/
theorem W3_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)

/-- The graph ids are no output of the second region. -/
theorem W4_arg7 (c : Dev nD) : W4 m ρ c (Proc.devRef .tc main_arg7) = m ((c : Thread nD τ).loc main_arg7) :=
  (W4_of_ne m ρ c main_arg7 (by decide)).trans (W3_arg7 m ρ c)

/-! ## The first layer -/

/-- The first region finds, in its features array, the node features aggregated over the edges. -/
theorem entry_first (c : Dev nD) :
    V1 m ρ c main_v9 = Cert.Stages.edgeSum (m ((c : Thread nD τ).loc main_arg0)) (m ((c : Thread nD τ).loc main_arg5)) (m ((c : Thread nD τ).loc main_arg6)) := by
  show StableHlo.after hostOps0 (W0 m ρ c) (Proc.devRef .tc main_v9) = _
  after_results
  rfl

/-- It leaves the first layer's clamped features in its first output array, -/
theorem first_features (c : Dev nD) :
    W2 m ρ c (Proc.devRef .tc main_v10_0)
      = Cert.Stages.feat1 (m ((c : Thread nD τ).loc main_arg0)) (m ((c : Thread nD τ).loc main_arg1)) (m ((c : Thread nD τ).loc main_arg5)) (m ((c : Thread nD τ).loc main_arg6)) := by
  refine (W2_arr m ρ c 3).trans ((Cert.Region0.feat_array (V1 m ρ) c).trans ?_)
  unfold Cert.Stages.feat1
  rw [entry_first m ρ c, show V1 m ρ c main_arg1 = m ((c : Thread nD τ).loc main_arg1) from W1_arg1 m ρ c]

/-- and their row softmax in its second. -/
theorem first_softmax (c : Dev nD) :
    W2 m ρ c (Proc.devRef .tc main_v10_1)
      = Cert.Stages.rowSoftmax (Cert.Stages.feat1 (m ((c : Thread nD τ).loc main_arg0)) (m ((c : Thread nD τ).loc main_arg1)) (m ((c : Thread nD τ).loc main_arg5)) (m ((c : Thread nD τ).loc main_arg6))) (m ((c : Thread nD τ).loc main_arg2)) := by
  refine (W2_arr m ρ c 4).trans ((Cert.Region0.soft_array (V1 m ρ) c).trans ?_)
  unfold Cert.Stages.feat1
  rw [entry_first m ρ c, show V1 m ρ c main_arg1 = m ((c : Thread nD τ).loc main_arg1) from W1_arg1 m ρ c,
    show V1 m ρ c main_arg2 = m ((c : Thread nD τ).loc main_arg2) from W1_arg2 m ρ c]

/-! ## The second layer -/

/-- The second region finds, in its features array, the first layer's clamped features aggregated over the edges. -/
theorem entry_second (c : Dev nD) :
    V3 m ρ c main_v20
      = Cert.Stages.edgeSum (Cert.Stages.feat1 (m ((c : Thread nD τ).loc main_arg0)) (m ((c : Thread nD τ).loc main_arg1)) (m ((c : Thread nD τ).loc main_arg5)) (m ((c : Thread nD τ).loc main_arg6))) (m ((c : Thread nD τ).loc main_arg5)) (m ((c : Thread nD τ).loc main_arg6)) := by
  show StableHlo.after hostOps1 (W2 m ρ c) (Proc.devRef .tc main_v20) = _
  after_results
  rw [first_features m ρ c, W2_arg5 m ρ c, W2_arg6 m ρ c]
  rfl

/-- It leaves the row softmax of the second layer's clamped features in its second output array. -/
theorem second_softmax (c : Dev nD) :
    W4 m ρ c (Proc.devRef .tc main_v21_1)
      = Cert.Stages.rowSoftmax (Cert.Stages.feat2 (m ((c : Thread nD τ).loc main_arg0)) (m ((c : Thread nD τ).loc main_arg1)) (m ((c : Thread nD τ).loc main_arg3)) (m ((c : Thread nD τ).loc main_arg5)) (m ((c : Thread nD τ).loc main_arg6))) (m ((c : Thread nD τ).loc main_arg4)) := by
  refine (W4_arr m ρ c 4).trans ((Cert.Region1.soft_array (V3 m ρ) c).trans ?_)
  unfold Cert.Stages.feat2
  rw [entry_second m ρ c, show V3 m ρ c main_arg3 = m ((c : Thread nD τ).loc main_arg3) from W3_arg3 m ρ c,
    show V3 m ρ c main_arg4 = m ((c : Thread nD τ).loc main_arg4) from W3_arg4 m ρ c]

/-- The first layer's softmax array is still there after the second stretch and the second region. -/
theorem first_softmax_kept (c : Dev nD) :
    W4 m ρ c (Proc.devRef .tc main_v10_1)
      = Cert.Stages.rowSoftmax (Cert.Stages.feat1 (m ((c : Thread nD τ).loc main_arg0)) (m ((c : Thread nD τ).loc main_arg1)) (m ((c : Thread nD τ).loc main_arg5)) (m ((c : Thread nD τ).loc main_arg6))) (m ((c : Thread nD τ).loc main_arg2)) :=
  (W4_of_ne m ρ c main_v10_1 (by decide)).trans
    ((StableHlo.after_of_forall_not_mem (b := Proc.devRef .tc main_v10_1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (first_softmax m ρ c))

/-! ## The result -/

/-- Adding onto an array of zeros changes nothing. -/
theorem zeros_add (A : FVec Ideal Cert.ReferenceIdeal.S50000x512 .f32)
    (h : (⟨0, ![]⟩ : Shape).BroadcastsInDim Cert.ReferenceIdeal.S50000x512 ![]) :
    addf (broadcastInDim Cert.ReferenceIdeal.S50000x512 ![] h (constant (F := Ideal) ⟨0, ![]⟩ .f32 0x00000000#32)) A = A := by
  funext i
  refine (congrArg (fun z : EReal => z + A i) (broadcastInDim_apply ![] h
    (constant (F := Ideal) ⟨0, ![]⟩ .f32 0x00000000#32) i (fun ax => ax.elim0) (fun ax => ax.elim0))).trans ?_
  show Ideal.ofBits .f32 0x00000000#32 + A i = A i
  rw [Ideal.ofBits_zero_f32, zero_add]

/-- THE RESULT BUFFER at the last boundary is the specification of the arguments. -/
theorem result_is_spec (c : Dev nD) :
    W5 m ρ c (Proc.devRef .tc main_v25)
      = Cert.Stages.spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v25) = _
  after_results
  rw [W4_arg7 m ρ c, first_softmax_kept m ρ c, second_softmax m ρ c]
  unfold Cert.Stages.spec
  rw [zeros_add]
  rfl

end Cert.KernelValue

end
-- ==== Proof.lean ====
/-
  A two-layer graph network: each layer sums, for every node, the features of its in-neighbours, multiplies by a weight
  matrix and clamps below at zero, multiplies by a second matrix and takes the softmax of every row; the two layers' softmax
  arrays are added and their rows accumulated per graph. The kernel program runs each layer's two products and the softmax
  as one pipelined region over blocks of 2000 nodes, the aggregations and the final pooling as host operations around the
  two regions; the plain program does everything with host operations on the whole arrays.

  Over the extended reals the two compute one function of the arguments (Proof/Stages.lean, the specification): a
  rounding of a product's operands is the identity; a product accumulated into zeros is the plain sum over the contracted
  axis; a block of rows of the clamped product or of the softmax depends only on those rows of the features, so the
  blocks of the region's outputs are the blocks of the whole-array stages and tile them (Proof/RegionValue0.lean,
  Proof/RegionValue1.lean over Proof/KernelBlock.lean and Proof/SoftmaxRows.lean); the aggregations and the pooling are
  the same operations on both sides; and the plain program's sum of the two softmax arrays starts from zeros, which adds
  nothing (Proof/KernelValue.lean). No step needs the inputs finite.

  The three frames: the two kernel programs' are the generated frame certificates; the plain program's is its generated
  run with the result dropped. The kernel's idealization rewrote nothing, so there is nothing to preserve.
-/
import proofs.«145317_j40484361732769_1_alg».proof.Defs
import proofs.«145317_j40484361732769_1_alg».proof.Proof.Gen.Kernel
import proofs.«145317_j40484361732769_1_alg».proof.Proof.Gen.Kernel.Frame
import proofs.«145317_j40484361732769_1_alg».proof.Proof.Gen.KernelIdeal
import proofs.«145317_j40484361732769_1_alg».proof.Proof.Gen.KernelIdeal.Frame
import proofs.«145317_j40484361732769_1_alg».proof.Proof.Gen.ReferenceIdeal
import proofs.«145317_j40484361732769_1_alg».proof.Proof.Gen.Pre_finite_inputs
import proofs.«145317_j40484361732769_1_alg».proof.Proof.Gen.ReferenceIdeal.Run
import proofs.«145317_j40484361732769_1_alg».proof.Proof.Gen.ReferenceIdeal.Read
import proofs.«145317_j40484361732769_1_alg».proof.Proof.Stages
import proofs.«145317_j40484361732769_1_alg».proof.Proof.RefIsSpec
import proofs.«145317_j40484361732769_1_alg».proof.Proof.KernelRun
import proofs.«145317_j40484361732769_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the result buffer at the specification of the
    kernel's arguments: the kernel by its run read back to the launch memory, the plain program by its run's term. -/
theorem algebraic : Cert.algebraic_KernelIdeal_ReferenceIdeal := by
  intro m ρ m' ρ' _ hagree
  refine ⟨fun c => Cert.Stages.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelValue.result_is_spec m ρ c), (h c).2⟩)
      (Cert.KernelRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, Cert.RefValue.result_is_spec]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
